-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16x64x1024 : Shape := ⟨3, ![16, 64, 1024]⟩
abbrev S16x64 : Shape := ⟨2, ![16, 64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_arg5 : FVec F S16x64 .f32) (main_arg6 : FVec F S16x64 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S2x2048x1024 .f32) (main_arg1 : FVec F S16x64x1024 .f32) (main_arg2 : FVec F S16x64x1024 .f32) (main_arg3 : FVec F S16x64x1024 .f32) (main_arg4 : FVec F S16x64 .f32) (main_arg5 : FVec F S16x64 .f32) (main_arg6 : FVec F S16x64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S16x64x1024 .f32 := Host.absf main_arg2
  let main_cst_2 : FVec F S_ .f32 := constant S_ .f32 0x7F800000#32
  let main_v10 : FVec F S16x64x1024 .f32 := broadcastInDim S16x64x1024 ![] bcast_S_S16x64x1024 main_cst_2
  let main_v11 : IVec S16x64x1024 1 := cmpf .olt main_v9 main_v10
  let main_c_3 : IVec S_ 1 := constantI S_ 1 1#1
  let main_v12 : IVec S_ 1 := (fun x v => Host.reduce IntOp.andi x v reducesTo_S16x64x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_arg6 main_v13 main_v16
-- ==== Kernel.lean ====
abbrev S2x2048x1024 : Shape := ⟨3, ![2, 2048, 1024]⟩
abbrev S16x64x1024 : Shape := ⟨3, ![16, 64, 1024]⟩
abbrev S16x64 : Shape := ⟨2, ![16, 64]⟩
abbrev S4x256x1024 : Shape := ⟨3, ![4, 256, 1024]⟩
abbrev S4x256 : Shape := ⟨2, ![4, 256]⟩
abbrev S4x1x256 : Shape := ⟨3, ![4, 1, 256]⟩
abbrev S1x2048x1024 : Shape := ⟨3, ![1, 2048, 1024]⟩
abbrev S1x256x1024 : Shape := ⟨3, ![1, 256, 1024]⟩
abbrev S1x1x256 : Shape := ⟨3, ![1, 1, 256]⟩
abbrev S1x2048x256 : Shape := ⟨3, ![1, 2048, 256]⟩
abbrev S2048x1024 : Shape := ⟨2, ![2048, 1024]⟩
abbrev S256x1024 : Shape := ⟨2, ![256, 1024]⟩
abbrev S256 : Shape := ⟨1, ![256]⟩
abbrev S2048x256 : Shape := ⟨2, ![2048, 256]⟩
abbrev S1x256 : Shape := ⟨2, ![1, 256]⟩
abbrev S256x256 : Shape := ⟨2, ![256, 256]⟩

abbrev nBuf : Space → Nat
  | .hbm => 20
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S4x256x1024, .f32⟩
  | .hbm, ⟨8, _⟩ => ⟨S4x256x1024, .bf16⟩
  | .hbm, ⟨9, _⟩ => ⟨S4x256x1024, .f32⟩
  | .hbm, ⟨10, _⟩ => ⟨S4x256x1024, .bf16⟩
  | .hbm, ⟨11, _⟩ => ⟨S4x256x1024, .f32⟩
  | .hbm, ⟨12, _⟩ => ⟨S4x256x1024, .bf16⟩
  | .hbm, ⟨13, _⟩ => ⟨S4x256, .f32⟩
  | .hbm, ⟨14, _⟩ => ⟨S4x1x256, .f32⟩
  | .hbm, ⟨15, _⟩ => ⟨S4x256, .f32⟩
  | .hbm, ⟨16, _⟩ => ⟨S4x1x256, .f32⟩
  | .hbm, ⟨17, _⟩ => ⟨S4x256, .f32⟩
  | .hbm, ⟨18, _⟩ => ⟨S4x1x256, .f32⟩
  | .hbm, ⟨19, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x2048x256, .f32⟩
  | .local _ .vmem, ⟨15, _⟩ => ⟨S1x2048x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16x64x1024_S4x256x1024 : S16x64x1024.ShapeCasts S4x256x1024
  bitsLt_bf16_f32 : FTy.bits .bf16 < FTy.bits .f32
  shapeCasts_S16x64_S4x256 : S16x64.ShapeCasts S4x256
  bcast_S4x256_S4x1x256_0_2 : S4x256.BroadcastsInDim S4x1x256 (![0, 2] : Fin 2 → Fin S4x1x256.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S2048x256 : S1x256.Broadcasts S2048x256
  iota_S256x256_d0_w32 : S256x256.Iotas .tc 32 [0]
  natLt_1_32 : 1 < 32
  iota_S256x256_d1_w32 : S256x256.Iotas .tc 32 [1]
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x1024_S256x1024_S2048x256_1_1_0_0_n_n_wf : DotDims.WF S2048x1024 S256x1024 S2048x256 [1] [1] [0] [0] [] []
  dot_S2048x256_S2048x256_S256x256_0_0_1_1_n_n_wf : DotDims.WF S2048x256 S2048x256 S256x256 [0] [0] [1] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x256x1024.size a
  hwx0_1 : ∀ i : grid0.Coords, EltTy.bits .bf16 = 32 ∨ (Rect.block (s := S4x256x1024) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x256x1024.size a
  hwx0_2 : ∀ i : grid0.Coords, EltTy.bits .bf16 = 32 ∨ (Rect.block (s := S4x256x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x256x1024.size a
  hwx0_3 : ∀ i : grid0.Coords, EltTy.bits .bf16 = 32 ∨ (Rect.block (s := S4x256x1024) S1x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S4x1x256.size a
  hwx0_5 : ∀ i : grid0.Coords, EltTy.bits .f32 = 32 ∨ (Rect.block (s := S4x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S4x1x256.size a
  hwx0_6 : ∀ i : grid0.Coords, EltTy.bits .f32 = 32 ∨ (Rect.block (s := S4x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S2x2048x1024.size a
  hwx0_7 : ∀ i : grid0.Coords, EltTy.bits .f32 = 32 ∨ (Rect.block (s := S2x2048x1024) S1x2048x256.size (cc0_transform_7 i) (hinb0_7 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S16x64x1024 : Shape := ⟨3, ![16, 64, 1024]⟩
abbrev S16x64 : Shape := ⟨2, ![16, 64]⟩
abbrev S16x64x2x2048 : Shape := ⟨4, ![16, 64, 2, 2048]⟩
abbrev S2x16x2048x64 : Shape := ⟨4, ![2, 16, 2048, 64]⟩
abbrev S1x16x1x64 : Shape := ⟨4, ![1, 16, 1, 64]⟩
abbrev S2x16x2048x2048 : Shape := ⟨4, ![2, 16, 2048, 2048]⟩
abbrev S_ : Shape := ⟨0, ![]⟩
abbrev S2x2048x16x64 : Shape := ⟨4, ![2, 2048, 16, 64]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x64x2x2048, .f32⟩
  | .hbm, ⟨8, _⟩ => ⟨S2x16x2048x64, .f32⟩
  | .hbm, ⟨9, _⟩ => ⟨S1x16x1x64, .f32⟩
  | .hbm, ⟨10, _⟩ => ⟨S2x16x2048x64, .f32⟩
  | .hbm, ⟨11, _⟩ => ⟨S2x16x2048x64, .f32⟩
  | .hbm, ⟨12, _⟩ => ⟨S16x64x2x2048, .f32⟩
  | .hbm, ⟨13, _⟩ => ⟨S2x16x2048x64, .f32⟩
  | .hbm, ⟨14, _⟩ => ⟨S1x16x1x64, .f32⟩
  | .hbm, ⟨15, _⟩ => ⟨S2x16x2048x64, .f32⟩
  | .hbm, ⟨16, _⟩ => ⟨S2x16x2048x64, .f32⟩
  | .hbm, ⟨17, _⟩ => ⟨S16x64x2x2048, .f32⟩
  | .hbm, ⟨18, _⟩ => ⟨S2x16x2048x64, .f32⟩
  | .hbm, ⟨19, _⟩ => ⟨S1x16x1x64, .f32⟩
  | .hbm, ⟨20, _⟩ => ⟨S2x16x2048x64, .f32⟩
  | .hbm, ⟨21, _⟩ => ⟨S2x16x2048x64, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | .hbm, ⟨27, _⟩ => ⟨S2x2048x16x64, .f32⟩
  | .hbm, ⟨28, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S16x64x2x2048_S2x16x2048x64_2_0_3_1 : S16x64x2x2048.Transposes [2, 0, 3, 1] S2x16x2048x64
  bcast_S16x64_S1x16x1x64_1_3 : S16x64.BroadcastsInDim S1x16x1x64 (![1, 3] : Fin 2 → Fin S1x16x1x64.rank)
  bcast_S1x16x1x64_S2x16x2048x64_0_1_2_3 : S1x16x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S16x64x1024_S2x2048x1024_S16x64x2x2048_2_2_01_01_n_n_wf : DotDims.WF S16x64x1024 S2x2048x1024 S16x64x2x2048 [2] [2] [0, 1] [0, 1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S16x64x1024_S2x2048x1024_S16x64x2x2048_2_2_01_01_n_n : DotDims S16x64x1024 S2x2048x1024 S16x64x2x2048 where
  lhsContracting := [2]
  rhsContracting := [2]
  lhsNonContracting := [0, 1]
  rhsNonContracting := [0, 1]
  lhsBatch := []
  rhsBatch := []
  wf := dot_S16x64x1024_S2x2048x1024_S16x64x2x2048_2_2_01_01_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnLaw.lean ====
/-
  The mathematics of the certificate, free of both programs.

  Inputs: an activation `x[b, s, d]`, three stacks of per-head weights `W[h, e, d]` and three biases `β[h, e]`
  (2 batches, 2048 positions, model width 1024, 16 heads of width 64).  Each head has three projections
  `P[b, s, h, e] = Σ_d x[b, s, d] · W[h, e, d] + β[h, e]` (queries `Q`, keys `K`, values `V`).

  * The reference forms the score matrix first: its entry for output column `(h, e)` is
      `Σ_t ((Σ_e' Q[b,s,h,e'] · K[b,t,h,e']) · 1/8) · V[b,t,h,e]`.
  * The kernel treats four heads (256 columns) at once and forms the small matrix `Kᵀ V` first, keeping only its four
    diagonal 64 x 64 blocks: for the group `g` and the column `j` of the group its entry is
      `(Σ_{i < 256} Q[b,s,·i] · (if i and j lie in the same head then Σ_t K[b,t,·i] · V[b,t,·j] else 0)) · 1/8`.

  Over the reals the two are equal: the zero blocks drop the 192 columns `i` of the other three heads, and what is
  left is the reference's double sum with the two summations exchanged.  Exchanging them uses distributivity, which
  fails on the extended reals at infinities; so the law is stated for inputs that are real numbers.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev SX : Shape := ⟨3, ![2, 2048, 1024]⟩
abbrev SW : Shape := ⟨3, ![16, 64, 1024]⟩
abbrev SB : Shape := ⟨2, ![16, 64]⟩

/-- One head's projection of one position. -/
def proj (x : SX.Idx → EReal) (W : SW.Idx → EReal) (β : SB.Idx → EReal) (b : Fin 2) (s : Fin 2048) (h : Fin 16) (e : Fin 64) : EReal :=
  (∑ d : Fin 1024, x (ix3 b s d) * W (ix3 h e d)) + β (ix2 h e)

/-- Head `a` of group `g`. -/
def hd (g a : Fin 4) : Fin 16 := ⟨4 * g.val + a.val, by omega⟩
/-- The head, within its group, of column `i` of the group. -/
def sub (i : Fin 256) : Fin 4 := ⟨i.val / 64, by omega⟩
/-- The column within its head of column `i` of the group. -/
def lane (i : Fin 256) : Fin 64 := ⟨i.val % 64, by omega⟩

/-- The scale `64^(-1/2) = 1/8`, as the float word both programs spell. -/
def eighth : EReal := Ideal.ofBits .f32 0x3E000000#32

/-- The kernel's entry for position `(b, s)`, group `g`, column `j` of the group. -/
def kernelOut (x : SX.Idx → EReal) (Wq Wk Wv : SW.Idx → EReal) (bq bk bv : SB.Idx → EReal)
    (b : Fin 2) (s : Fin 2048) (g : Fin 4) (j : Fin 256) : EReal :=
  (∑ i : Fin 256, proj x Wq bq b s (hd g (sub i)) (lane i) *
    (if i.val / 64 = j.val / 64 then
      ∑ t : Fin 2048, proj x Wk bk b t (hd g (sub i)) (lane i) * proj x Wv bv b t (hd g (sub j)) (lane j) else 0)) * eighth

/-- The reference's entry for position `(b, s)`, head `h`, column `e` of the head. -/
def refOut (x : SX.Idx → EReal) (Wq Wk Wv : SW.Idx → EReal) (bq bk bv : SB.Idx → EReal)
    (b : Fin 2) (s : Fin 2048) (h : Fin 16) (e : Fin 64) : EReal :=
  ∑ t : Fin 2048, ((∑ e' : Fin 64, proj x Wq bq b s h e' * proj x Wk bk b t h e') * eighth) * proj x Wv bv b t h e

/-- The kernel's whole result: column `c` is column `c % 256` of group `c / 256`. -/
def kernelArr (x : SX.Idx → EReal) (Wq Wk Wv : SW.Idx → EReal) (bq bk bv : SB.Idx → EReal) : SX.Idx → EReal := fun i =>
  kernelOut x Wq Wk Wv bq bk bv (i 0) (i 1) ⟨(i 2).val / 256, by have h : (i 2).val < 1024 := (i 2).isLt; omega⟩ ⟨(i 2).val % 256, by omega⟩

/-- The reference's whole result: column `c` is column `c % 64` of head `c / 64`. -/
def refArr (x : SX.Idx → EReal) (Wq Wk Wv : SW.Idx → EReal) (bq bk bv : SB.Idx → EReal) : SX.Idx → EReal := fun i =>
  refOut x Wq Wk Wv bq bk bv (i 0) (i 1) ⟨(i 2).val / 64, by have h : (i 2).val < 1024 := (i 2).isLt; omega⟩ ⟨(i 2).val % 64, by omega⟩

/-! ## The law over the reals -/

/-- A column of a group is its head and its column within the head. -/
def split : Fin 256 ≃ Fin 4 × Fin 64 where
  toFun i := (sub i, lane i)
  invFun p := ⟨p.1.val * 64 + p.2.val, by have := p.1.isLt; have := p.2.isLt; omega⟩
  left_inv i := by
    apply Fin.ext
    show i.val / 64 * 64 + i.val % 64 = i.val
    omega
  right_inv p := by
    have h1 := p.1.isLt
    have h2 := p.2.isLt
    apply Prod.ext
    · apply Fin.ext
      show (p.1.val * 64 + p.2.val) / 64 = p.1.val
      omega
    · apply Fin.ext
      show (p.1.val * 64 + p.2.val) % 64 = p.2.val
      omega

/-- Masking `Kᵀ V` to its diagonal blocks and multiplying by `Q` is the reference's double sum. -/
theorem lawR (q : Fin 16 → Fin 64 → ℝ) (k v : Fin 2048 → Fin 16 → Fin 64 → ℝ) (g : Fin 4) (j : Fin 256) (c : ℝ) :
    (∑ i : Fin 256, q (hd g (sub i)) (lane i) *
      (if i.val / 64 = j.val / 64 then ∑ t : Fin 2048, k t (hd g (sub i)) (lane i) * v t (hd g (sub j)) (lane j) else 0)) * c
    = ∑ t : Fin 2048, ((∑ e' : Fin 64, q (hd g (sub j)) e' * k t (hd g (sub j)) e') * c) * v t (hd g (sub j)) (lane j) := by
  have hsum : (∑ i : Fin 256, q (hd g (sub i)) (lane i) *
      (if i.val / 64 = j.val / 64 then ∑ t : Fin 2048, k t (hd g (sub i)) (lane i) * v t (hd g (sub j)) (lane j) else 0))
      = ∑ p : Fin 4 × Fin 64, (if p.1 = sub j then q (hd g p.1) p.2 * ∑ t : Fin 2048, k t (hd g p.1) p.2 * v t (hd g (sub j)) (lane j) else 0) := by
    refine Fintype.sum_equiv split _ _ fun i => ?_
    show _ = if sub i = sub j then _ else 0
    by_cases h : i.val / 64 = j.val / 64
    · rw [if_pos h, if_pos (Fin.ext h)]
      rfl
    · rw [if_neg h, if_neg (fun h' => h (congrArg Fin.val h')), mul_zero]
  rw [hsum, Fintype.sum_prod_type, Finset.sum_eq_single (sub j)]
  · simp only [if_true, Finset.mul_sum, Finset.sum_mul]
    rw [Finset.sum_comm]
    refine Finset.sum_congr rfl fun t _ => Finset.sum_congr rfl fun e' _ => ?_
    ring
  · intro a _ ha
    simp only [if_neg ha, Finset.sum_const_zero]
  · intro h
    exact absurd (Finset.mem_univ _) h

/-! ## From the extended reals to the reals -/

theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem ite_coe (p : Prop) [Decidable p] (a : ℝ) : (if p then (a : EReal) else 0) = ((if p then a else 0 : ℝ) : EReal) := by
  split <;> simp

/-- The scale is the real number 1/8. -/
theorem eighth_eq : eighth = ((1 / 8 : ℝ) : EReal) := by
  simp [eighth, Ideal.ofBits, Ideal.ieee, -EReal.coe_mul]; norm_num

/-- A projection of real inputs is a real number. -/
theorem proj_coe (x : SX.Idx → ℝ) (W : SW.Idx → ℝ) (β : SB.Idx → ℝ) (b : Fin 2) (s : Fin 2048) (h : Fin 16) (e : Fin 64) :
    proj (fun i => (x i : EReal)) (fun i => (W i : EReal)) (fun i => (β i : EReal)) b s h e
      = (((∑ d : Fin 1024, x (ix3 b s d) * W (ix3 h e d)) + β (ix2 h e) : ℝ) : EReal) := by
  simp only [proj, EReal.coe_add, coe_sum, EReal.coe_mul]

/-- For real inputs the kernel's entry is the reference's. -/
theorem kernelOut_eq_refOut (x : SX.Idx → ℝ) (Wq Wk Wv : SW.Idx → ℝ) (bq bk bv : SB.Idx → ℝ)
    (b : Fin 2) (s : Fin 2048) (g : Fin 4) (j : Fin 256) :
    kernelOut (fun i => (x i : EReal)) (fun i => (Wq i : EReal)) (fun i => (Wk i : EReal)) (fun i => (Wv i : EReal))
        (fun i => (bq i : EReal)) (fun i => (bk i : EReal)) (fun i => (bv i : EReal)) b s g j
      = refOut (fun i => (x i : EReal)) (fun i => (Wq i : EReal)) (fun i => (Wk i : EReal)) (fun i => (Wv i : EReal))
        (fun i => (bq i : EReal)) (fun i => (bk i : EReal)) (fun i => (bv i : EReal)) b s (hd g (sub j)) (lane j) := by
  unfold kernelOut refOut
  simp only [proj_coe, eighth_eq]
  simp only [← EReal.coe_mul, ← coe_sum, ite_coe]
  exact congrArg Real.toEReal (lawR
    (fun h e => (∑ d : Fin 1024, x (ix3 b s d) * Wq (ix3 h e d)) + bq (ix2 h e))
    (fun t h e => (∑ d : Fin 1024, x (ix3 b t d) * Wk (ix3 h e d)) + bk (ix2 h e))
    (fun t h e => (∑ d : Fin 1024, x (ix3 b t d) * Wv (ix3 h e d)) + bv (ix2 h e)) g j (1 / 8))

/-- For real inputs the two whole arrays are equal. -/
theorem kernelArr_eq_refArr (x : SX.Idx → ℝ) (Wq Wk Wv : SW.Idx → ℝ) (bq bk bv : SB.Idx → ℝ) :
    kernelArr (fun i => (x i : EReal)) (fun i => (Wq i : EReal)) (fun i => (Wk i : EReal)) (fun i => (Wv i : EReal))
        (fun i => (bq i : EReal)) (fun i => (bk i : EReal)) (fun i => (bv i : EReal))
      = refArr (fun i => (x i : EReal)) (fun i => (Wq i : EReal)) (fun i => (Wk i : EReal)) (fun i => (Wv i : EReal))
        (fun i => (bq i : EReal)) (fun i => (bk i : EReal)) (fun i => (bv i : EReal)) := by
  funext i
  obtain ⟨b, s, c, rfl⟩ : ∃ (b : Fin 2) (s : Fin 2048) (c : Fin 1024), i = ix3 b s c := ⟨i 0, i 1, i 2, eq_ix3 i⟩
  have hc : c.val < 1024 := c.isLt
  show kernelOut _ _ _ _ _ _ _ b s ⟨c.val / 256, _⟩ ⟨c.val % 256, _⟩ = refOut _ _ _ _ _ _ _ b s ⟨c.val / 64, _⟩ ⟨c.val % 64, _⟩
  rw [kernelOut_eq_refOut]
  congr 1
  · apply Fin.ext
    show 4 * (c.val / 256) + c.val % 256 / 64 = c.val / 64
    omega
  · apply Fin.ext
    show c.val % 256 % 64 = c.val % 64
    omega

end Cert.Attn

end
-- ==== Proof.HeadMask.lean ====
/-
  The integer mask of the kernel body.  The body numbers the rows and the columns of a 256 x 256 tile, divides
  each number by 64 rounding towards minus infinity (a truncating division followed by the usual correction for
  operands of opposite signs), and compares the two quotients.  Row and column numbers are below 256, hence
  non-negative, so the correction never fires and each quotient is the number of the 64-wide head the row or the
  column lies in: the mask is set exactly on the four diagonal 64 x 64 blocks.
-/
import proofs.«149951_j54915451847175_2_alg».proof.Proof.Gen.KernelIdeal.Skeleton
import Idealize.ShloMosaic.Lib.Pipeline.Value
import Idealize.ShloMosaic.Lib.ValueIdx

noncomputable section

namespace Cert.KernelIdeal.HeadMask

open Cert.KernelIdeal Cert.KernelIdeal.Gen Idealize.ShloMosaic Idealize.ShloMosaic.ValueIdx

/-- The row quotient: at `(a, b)` the word of `a / 64` (all 256 row numbers checked). -/
theorem rowHead_apply (a b : Fin 256) :
    k0_pay5 (iota .tc S256x256 32 [0] iota_S256x256_d0_w32) 64#32 (ix2 a b) = BitVec.ofNat 32 (a.val / 64) := by
  unfold k0_pay5
  dsimp only [select, subi, divsi, remsi, cmpi, andi, extui, broadcast]
  rw [iota_single_apply]
  dsimp only [ix2]
  clear b
  revert a
  decide +kernel

/-- The column quotient: at `(a, b)` the word of `b / 64` (all 256 column numbers checked). -/
theorem colHead_apply (a b : Fin 256) :
    select k0_pay7 (subi k0_pay6 k0_pay8) k0_pay6 (ix2 a b) = BitVec.ofNat 32 (b.val / 64) := by
  unfold k0_pay7 k0_pay6 k0_pay8
  dsimp only [select, subi, divsi, remsi, cmpi, andi, extui, broadcast]
  rw [iota_single_apply]
  dsimp only [ix2]
  clear a
  revert b
  decide +kernel

/-- Two head numbers below 4 have equal words exactly when they are equal. -/
theorem cmp_heads : ∀ p q : Fin 4, IntOp.cmpi .eq (BitVec.ofNat 32 p.val) (BitVec.ofNat 32 q.val) = if p.val = q.val then 1#1 else 0#1 := by
  decide +kernel

/-- The mask at `(a, b)`: set exactly when row `a` and column `b` lie in the same head. -/
theorem mask_apply (a b : Fin 256) :
    cmpi .eq (k0_pay5 (iota .tc S256x256 32 [0] iota_S256x256_d0_w32) 64#32) (select k0_pay7 (subi k0_pay6 k0_pay8) k0_pay6) (ix2 a b)
      = if a.val / 64 = b.val / 64 then 1#1 else 0#1 := by
  show IntOp.cmpi .eq (k0_pay5 (iota .tc S256x256 32 [0] iota_S256x256_d0_w32) 64#32 (ix2 a b)) (select k0_pay7 (subi k0_pay6 k0_pay8) k0_pay6 (ix2 a b)) = _
  rw [rowHead_apply, colHead_apply]
  exact cmp_heads ⟨a.val / 64, by omega⟩ ⟨b.val / 64, by omega⟩

end Cert.KernelIdeal.HeadMask

end
-- ==== Proof.KernelPieces.lean ====
/-
  The arithmetic of the kernel body, read entry by entry at the ideal values.

  The body works on one batch and one group of four heads (256 columns).  From the block `x` of activations
  (2048 positions by 1024) and a block `w` of 256 weight rows it forms a projection, entry `(s, i)` being
  `Σ_d x[s, d] · w[i, d]` plus the bias of column `i`; from the key and value projections it forms the 256 x 256
  matrix whose entry `(i, j)` is `Σ_t K[t, i] · V[t, j]`; it zeroes the entries whose row and column lie in different
  heads, multiplies the query projection by the result and scales by 1/8.  Changes of float format are the identity at
  the ideal values, and every matrix product starts from a zero accumulator, so each is a plain sum of products.
-/
import proofs.«149951_j54915451847175_2_alg».proof.Proof.Gen.KernelIdeal.Skeleton
import proofs.«149951_j54915451847175_2_alg».proof.Proof.HeadMask
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pieces

open Cert.KernelIdeal Cert.KernelIdeal.Gen Idealize.ShloMosaic Idealize.ShloMosaic.ValueIdx

/-! ## The three matrix products, each as a sum over its one contracted axis -/

theorem projMm_lhs0 (j : S2048x256.Idx) (k : dot_S2048x1024_S256x1024_S2048x256_1_1_0_0_n_n.contr.Idx) :
    (dot_S2048x1024_S256x1024_S2048x256_1_1_0_0_n_n.lhsIdx j k 0).val = (j 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
theorem projMm_lhs1 (j : S2048x256.Idx) (k : dot_S2048x1024_S256x1024_S2048x256_1_1_0_0_n_n.contr.Idx) :
    (dot_S2048x1024_S256x1024_S2048x256_1_1_0_0_n_n.lhsIdx j k 1).val = (k ⟨0, by decide⟩).val :=
  dot_S2048x1024_S256x1024_S2048x256_1_1_0_0_n_n.lhsIdx_val_of_single rfl j k
theorem projMm_rhs0 (j : S2048x256.Idx) (k : dot_S2048x1024_S256x1024_S2048x256_1_1_0_0_n_n.contr.Idx) :
    (dot_S2048x1024_S256x1024_S2048x256_1_1_0_0_n_n.rhsIdx j k 0).val = (j 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
theorem projMm_rhs1 (j : S2048x256.Idx) (k : dot_S2048x1024_S256x1024_S2048x256_1_1_0_0_n_n.contr.Idx) :
    (dot_S2048x1024_S256x1024_S2048x256_1_1_0_0_n_n.rhsIdx j k 1).val = (k ⟨0, by decide⟩).val :=
  dot_S2048x1024_S256x1024_S2048x256_1_1_0_0_n_n.rhsIdx_val_of_single rfl j k

/-- Positions by weight rows: both operands are contracted over their second axis. -/
theorem projMm_apply (A : FVec Ideal S2048x1024 .bf16) (B : FVec Ideal S256x1024 .bf16) (s : Fin 2048) (i : Fin 256) :
    matmul dot_S2048x1024_S256x1024_S2048x256_1_1_0_0_n_n none A B (constant S2048x256 .f32 0x00000000#32) (ix2 s i) = ∑ k : Fin 1024, A (ix2 s k) * B (ix2 i k) := by
  simp only [matmul]
  rw [Ideal.matmul_constant_zero_apply, ← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 s i) ((contrEquiv1 dot_S2048x1024_S256x1024_S2048x256_1_1_0_0_n_n 1024 rfl rfl).symm k) = ix2 s k := funext fun a => Fin.ext (by
    match a with
    | ⟨0, _⟩ => exact projMm_lhs0 _ _
    | ⟨1, _⟩ => exact (projMm_lhs1 _ _).trans hk)
  have er : dot_S2048x1024_S256x1024_S2048x256_1_1_0_0_n_n.rhsIdx (ix2 s i) ((contrEquiv1 dot_S2048x1024_S256x1024_S2048x256_1_1_0_0_n_n 1024 rfl rfl).symm k) = ix2 i k := funext fun a => Fin.ext (by
    match a with
    | ⟨0, _⟩ => exact projMm_rhs0 _ _
    | ⟨1, _⟩ => exact (projMm_rhs1 _ _).trans hk)
  rw [el, er]

theorem kvMm_lhs0 (j : S256x256.Idx) (k : dot_S2048x256_S2048x256_S256x256_0_0_1_1_n_n.contr.Idx) :
    (dot_S2048x256_S2048x256_S256x256_0_0_1_1_n_n.lhsIdx j k 0).val = (k ⟨0, by decide⟩).val :=
  dot_S2048x256_S2048x256_S256x256_0_0_1_1_n_n.lhsIdx_val_of_single rfl j k
theorem kvMm_lhs1 (j : S256x256.Idx) (k : dot_S2048x256_S2048x256_S256x256_0_0_1_1_n_n.contr.Idx) :
    (dot_S2048x256_S2048x256_S256x256_0_0_1_1_n_n.lhsIdx j k 1).val = (j 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem kvMm_rhs0 (j : S256x256.Idx) (k : dot_S2048x256_S2048x256_S256x256_0_0_1_1_n_n.contr.Idx) :
    (dot_S2048x256_S2048x256_S256x256_0_0_1_1_n_n.rhsIdx j k 0).val = (k ⟨0, by decide⟩).val :=
  dot_S2048x256_S2048x256_S256x256_0_0_1_1_n_n.rhsIdx_val_of_single rfl j k
theorem kvMm_rhs1 (j : S256x256.Idx) (k : dot_S2048x256_S2048x256_S256x256_0_0_1_1_n_n.contr.Idx) :
    (dot_S2048x256_S2048x256_S256x256_0_0_1_1_n_n.rhsIdx j k 1).val = (j 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl

/-- Keys transposed times values: both operands are contracted over their first axis, the positions. -/
theorem kvMm_apply (A : FVec Ideal S2048x256 .bf16) (B : FVec Ideal S2048x256 .bf16) (i : Fin 256) (j : Fin 256) :
    matmul dot_S2048x256_S2048x256_S256x256_0_0_1_1_n_n none A B (constant S256x256 .f32 0x00000000#32) (ix2 i j) = ∑ k : Fin 2048, A (ix2 k i) * B (ix2 k j) := by
  simp only [matmul]
  rw [Ideal.matmul_constant_zero_apply, ← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 i j) ((contrEquiv1 dot_S2048x256_S2048x256_S256x256_0_0_1_1_n_n 2048 rfl rfl).symm k) = ix2 k i := funext fun a => Fin.ext (by
    match a with
    | ⟨0, _⟩ => exact (kvMm_lhs0 _ _).trans hk
    | ⟨1, _⟩ => exact kvMm_lhs1 _ _)
  have er : dot_S2048x256_S2048x256_S256x256_0_0_1_1_n_n.rhsIdx (ix2 i j) ((contrEquiv1 dot_S2048x256_S2048x256_S256x256_0_0_1_1_n_n 2048 rfl rfl).symm k) = ix2 k j := funext fun a => Fin.ext (by
    match a with
    | ⟨0, _⟩ => exact (kvMm_rhs0 _ _).trans hk
    | ⟨1, _⟩ => exact kvMm_rhs1 _ _)
  rw [el, er]

theorem outMm_lhs0 (j : S2048x256.Idx) (k : dot_S2048x256_S256x256_S2048x256_1_0_0_1_n_n.contr.Idx) :
    (dot_S2048x256_S256x256_S2048x256_1_0_0_1_n_n.lhsIdx j k 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem outMm_lhs1 (j : S2048x256.Idx) (k : dot_S2048x256_S256x256_S2048x256_1_0_0_1_n_n.contr.Idx) :
    (dot_S2048x256_S256x256_S2048x256_1_0_0_1_n_n.lhsIdx j k 1).val = (k ⟨0, by decide⟩).val :=
  dot_S2048x256_S256x256_S2048x256_1_0_0_1_n_n.lhsIdx_val_of_single rfl j k
theorem outMm_rhs0 (j : S2048x256.Idx) (k : dot_S2048x256_S256x256_S2048x256_1_0_0_1_n_n.contr.Idx) :
    (dot_S2048x256_S256x256_S2048x256_1_0_0_1_n_n.rhsIdx j k 0).val = (k ⟨0, by decide⟩).val :=
  dot_S2048x256_S256x256_S2048x256_1_0_0_1_n_n.rhsIdx_val_of_single rfl j k
theorem outMm_rhs1 (j : S2048x256.Idx) (k : dot_S2048x256_S256x256_S2048x256_1_0_0_1_n_n.contr.Idx) :
    (dot_S2048x256_S256x256_S2048x256_1_0_0_1_n_n.rhsIdx j k 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The plain product of the query projection with the masked 256 x 256 matrix. -/
theorem outMm_apply (A : FVec Ideal S2048x256 .bf16) (B : FVec Ideal S256x256 .bf16) (s : Fin 2048) (j : Fin 256) :
    matmul dot_S2048x256_S256x256_S2048x256_1_0_0_1_n_n none A B (constant S2048x256 .f32 0x00000000#32) (ix2 s j) = ∑ k : Fin 256, A (ix2 s k) * B (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 s j) ((contrEquiv1 dot_S2048x256_S256x256_S2048x256_1_0_0_1_n_n 256 rfl rfl).symm k) = ix2 s k := funext fun a => Fin.ext (by
    match a with
    | ⟨0, _⟩ => exact outMm_lhs0 _ _
    | ⟨1, _⟩ => exact (outMm_lhs1 _ _).trans hk)
  have er : dot_S2048x256_S256x256_S2048x256_1_0_0_1_n_n.rhsIdx (ix2 s j) ((contrEquiv1 dot_S2048x256_S256x256_S2048x256_1_0_0_1_n_n 256 rfl rfl).symm k) = ix2 k j := funext fun a => Fin.ext (by
    match a with
    | ⟨0, _⟩ => exact (outMm_rhs0 _ _).trans hk
    | ⟨1, _⟩ => exact outMm_rhs1 _ _)
  rw [el, er]

/-! ## The bias row -/

/-- A `[1, 1, 256]` block viewed as a vector reads the block at `(0, 0, i)`. -/
theorem biasVec_apply (β : Vec Ideal S1x1x256 .f32) (i : Fin 256) :
    shapeCast S256 β shapeCasts_S1x1x256_S256 (ix1 i) = β (ix3 (0 : Fin 1) (0 : Fin 1) i) :=
  shapeCast_apply β shapeCasts_S1x1x256_S256 _ _ (by
    rw [Shape.rowMajor_val_three, Shape.rowMajor_val_one]
    show (0 * 1 + 0) * 256 + i.val = i.val
    omega)

/-- The bias added to every position: at `(s, i)` the bias of column `i`. -/
theorem biasRows_apply (β : Vec Ideal S1x1x256 .f32) (s : Fin 2048) (i : Fin 256) :
    broadcastTo S2048x256 (shapeCast S1x256 (shapeCast S256 β shapeCasts_S1x1x256_S256) shapeCasts_S256_S1x256) broadcasts_S1x256_S2048x256 (ix2 s i)
      = β (ix3 (0 : Fin 1) (0 : Fin 1) i) := by
  rw [broadcastTo_1b_ab_apply, shapeCast_a_1a_apply, biasVec_apply]

/-! ## The payloads -/

/-- A projection of the block: entry `(s, i)`. -/
theorem proj_apply (x : Vec Ideal S1x2048x1024 .f32) (w : Vec Ideal S1x256x1024 .bf16) (β : Vec Ideal S1x1x256 .f32) (s : Fin 2048) (i : Fin 256) :
    k0_pay3 x w β (ix2 s i) = (∑ d : Fin 1024, x (ix3 (0 : Fin 1) s d) * w (ix3 (0 : Fin 1) i d)) + β (ix3 (0 : Fin 1) (0 : Fin 1) i) := by
  unfold k0_pay3 k0_pay2
  rw [truncf_apply, addf_apply, projMm_apply, biasRows_apply]
  refine congrArg (· + _) (Finset.sum_congr rfl fun d _ => ?_)
  rw [truncf_apply, shapeCast_1ab_ab_apply, shapeCast_1ab_ab_apply]

/-- Keys transposed times values: entry `(i, j)` sums over the positions. -/
theorem kv_apply (x : Vec Ideal S1x2048x1024 .f32) (wk wv : Vec Ideal S1x256x1024 .bf16) (βk βv : Vec Ideal S1x1x256 .f32) (i j : Fin 256) :
    k0_pay4 x wk wv βk βv (ix2 i j) = ∑ t : Fin 2048, k0_pay3 x wk βk (ix2 t i) * k0_pay3 x wv βv (ix2 t j) := by
  unfold k0_pay4
  rw [kvMm_apply]
  rfl

/-- The stored block: the query projection times the masked matrix, scaled by 1/8. -/
theorem out_apply (Q : FVec Ideal S2048x256 .bf16) (KV : FVec Ideal S256x256 .f32) (u : Fin 1) (s : Fin 2048) (j : Fin 256) :
    k0_pay1 Q KV (k0_pay5 (iota .tc S256x256 32 [0] iota_S256x256_d0_w32) 64#32) k0_pay6 k0_pay7 k0_pay8 (ix3 u s j)
      = (∑ i : Fin 256, Q (ix2 s i) * (if i.val / 64 = j.val / 64 then KV (ix2 i j) else 0)) * Ideal.ofBits .f32 0x3E000000#32 := by
  unfold k0_pay1
  rw [shapeCast_ab_1ab_apply, mulf_apply, outMm_apply, broadcast_apply]
  refine congrArg₂ (· * ·) (Finset.sum_congr rfl fun i _ => congrArg (Q (ix2 s i) * ·) ?_) rfl
  rw [truncf_apply, select_apply, HeadMask.mask_apply, broadcast_apply]
  split
  · exact select_one _ _
  · exact (select_zero _ _).trans Ideal.ofBits_zero_f32

end Cert.KernelIdeal.Pieces

end
-- ==== Proof.KernelArray.lean ====
/-
  The kernel's result array as one function of the argument arrays.

  The grid has eight points, one per batch `b` and group `g` of four heads (point `4 b + g`).  At a point the body
  sees batch `b` of the activations, rows `256 g … 256 g + 255` of each weight stack (the stacks re-laid on the host
  from 16 heads of 64 rows to 4 groups of 256 rows: row `i` of group `g` is row `i % 64` of head `4 g + i / 64`) and the
  matching 256 biases, and it writes columns `256 g … 256 g + 255` of batch `b` of the result.  The eight blocks tile
  the result, so the array after the run is `kernelArr` of the arguments everywhere.
-/
import proofs.«149951_j54915451847175_2_alg».proof.Proof.Gen.KernelIdeal.Value
import proofs.«149951_j54915451847175_2_alg».proof.Proof.KernelPieces
import proofs.«149951_j54915451847175_2_alg».proof.Proof.AttnLaw
import Idealize.ShloMosaic.Lib.StableHlo.Run
import Idealize.ShloMosaic.Lib.Pipeline.Value
import Idealize.ShloMosaic.Lib.ValueIdx

noncomputable section

namespace Cert.KernelIdeal.KernelValue

open Cert.KernelIdeal Cert.KernelIdeal.Gen Cert.Attn Idealize.ShloMosaic Idealize.ShloMosaic.TcCoe Idealize.SL.Sem
open Idealize.ShloMosaic.ValueIdx Idealize.ShloMosaic.StableHlo
open Idealize.ShloMosaic.Pipeline (Dat)

/-! ## One point of the grid -/

/-- The body's stored block, when its input blocks are batch `b` of the activations and group `g` of the weights and
    biases: entry `(s, j)` is the kernel's entry for position `(b, s)`, group `g`, column `j`. -/
theorem body_eq (x : Vec Ideal S1x2048x1024 .f32) (wq wk wv : Vec Ideal S1x256x1024 .bf16) (βq βk βv : Vec Ideal S1x1x256 .f32)
    (X : SX.Idx → EReal) (Wq Wk Wv : SW.Idx → EReal) (bq bk bv : SB.Idx → EReal) (b : Fin 2) (g : Fin 4)
    (hx : ∀ (s : Fin 2048) (d : Fin 1024), x (ix3 (0 : Fin 1) s d) = X (ix3 b s d))
    (hwq : ∀ (i : Fin 256) (d : Fin 1024), wq (ix3 (0 : Fin 1) i d) = Wq (ix3 (hd g (sub i)) (lane i) d))
    (hwk : ∀ (i : Fin 256) (d : Fin 1024), wk (ix3 (0 : Fin 1) i d) = Wk (ix3 (hd g (sub i)) (lane i) d))
    (hwv : ∀ (i : Fin 256) (d : Fin 1024), wv (ix3 (0 : Fin 1) i d) = Wv (ix3 (hd g (sub i)) (lane i) d))
    (hβq : ∀ i : Fin 256, βq (ix3 (0 : Fin 1) (0 : Fin 1) i) = bq (ix2 (hd g (sub i)) (lane i)))
    (hβk : ∀ i : Fin 256, βk (ix3 (0 : Fin 1) (0 : Fin 1) i) = bk (ix2 (hd g (sub i)) (lane i)))
    (hβv : ∀ i : Fin 256, βv (ix3 (0 : Fin 1) (0 : Fin 1) i) = bv (ix2 (hd g (sub i)) (lane i)))
    (u : Fin 1) (s : Fin 2048) (j : Fin 256) :
    k0_pay1 (k0_pay3 x wq βq) (k0_pay4 x wk wv βk βv) (k0_pay5 (iota .tc S256x256 32 [0] iota_S256x256_d0_w32) 64#32) k0_pay6 k0_pay7 k0_pay8 (ix3 u s j)
      = kernelOut X Wq Wk Wv bq bk bv b s g j := by
  have hp : ∀ (w : Vec Ideal S1x256x1024 .bf16) (β : Vec Ideal S1x1x256 .f32) (W : SW.Idx → EReal) (bb : SB.Idx → EReal)
      (hw : ∀ (i : Fin 256) (d : Fin 1024), w (ix3 (0 : Fin 1) i d) = W (ix3 (hd g (sub i)) (lane i) d))
      (hβ : ∀ i : Fin 256, β (ix3 (0 : Fin 1) (0 : Fin 1) i) = bb (ix2 (hd g (sub i)) (lane i)))
      (p : Fin 2048) (i : Fin 256), k0_pay3 x w β (ix2 p i) = proj X W bb b p (hd g (sub i)) (lane i) := by
    intro w β W bb hw hβ p i
    rw [Pieces.proj_apply, hβ]
    unfold proj
    exact congrArg (· + _) (Finset.sum_congr rfl fun d _ => by rw [hx, hw])
  rw [Pieces.out_apply]
  unfold kernelOut
  refine congrArg₂ (· * ·) (Finset.sum_congr rfl fun i _ => ?_) rfl
  rw [hp wq βq Wq bq hwq hβq, Pieces.kv_apply]
  congr 1
  split
  · exact Finset.sum_congr rfl fun p _ => by rw [hp wk βk Wk bk hwk hβk, hp wv βv Wv bv hwv hβv]
  · rfl

/-! ## The host's re-laying of the weights and biases -/

/-- Row `i` of group `g` of a re-laid weight stack is row `i % 64` of head `4 g + i / 64`. -/
theorem weights_apply (W : FVec Ideal S16x64x1024 .f32) (g : Fin 4) (i : Fin 256) (d : Fin 1024) :
    (truncf .bf16 (shapeCast S4x256x1024 W shapeCasts_S16x64x1024_S4x256x1024) bitsLt_bf16_f32 : FVec Ideal S4x256x1024 .bf16) (ix3 g i d)
      = W (ix3 (hd g (sub i)) (lane i) d) := by
  rw [truncf_apply]
  exact shapeCast_apply W _ _ _ (by
    have hi : i.val < 256 := i.isLt
    rw [Shape.rowMajor_val_three, Shape.rowMajor_val_three]
    show ((4 * g.val + i.val / 64) * 64 + i.val % 64) * 1024 + d.val = (g.val * 256 + i.val) * 1024 + d.val
    omega)

/-- Bias `i` of group `g` is bias `i % 64` of head `4 g + i / 64`. -/
theorem bias_apply (β : FVec Ideal S16x64 .f32) (g : Fin 4) (u : Fin 1) (i : Fin 256) :
    broadcastInDim S4x1x256 ![0, 2] bcast_S4x256_S4x1x256_0_2 (shapeCast S4x256 β shapeCasts_S16x64_S4x256) (ix3 g u i)
      = β (ix2 (hd g (sub i)) (lane i)) := by
  rw [broadcastInDim_apply _ bcast_S4x256_S4x1x256_0_2 _ (ix3 g u i) (ix2 g i) (fun a => by
    match a with
    | ⟨0, _⟩ => show g.val = if (4 : Nat) = 1 then 0 else g.val; rw [if_neg (by decide)]
    | ⟨1, _⟩ => show i.val = if (256 : Nat) = 1 then 0 else i.val; rw [if_neg (by decide)])]
  exact shapeCast_apply β _ _ _ (by
    have hi : i.val < 256 := i.isLt
    rw [Shape.rowMajor_val_two, Shape.rowMajor_val_two]
    show (4 * g.val + i.val / 64) * 64 + i.val % 64 = g.val * 256 + i.val
    omega)

variable (m : (ℓ : Loc nD τ sig) → Buf (Elt Ideal) ℓ) (ρ : Dev nD → PrngReg)

/-- The three weight arrays the region finds: the arguments re-laid in groups of 256 rows. -/
theorem V_wq (c : Dev nD) : (V m c main_v1 : S4x256x1024.Idx → EReal)
    = truncf (F := Ideal) .bf16 (shapeCast S4x256x1024 (m ((c : Thread nD τ).loc main_arg1) : FVec Ideal S16x64x1024 .f32) shapeCasts_S16x64x1024_S4x256x1024) bitsLt_bf16_f32 := by
  dsimp only [Gen.V, Gen.hostOps0]; after_results; rfl
theorem V_wk (c : Dev nD) : (V m c main_v3 : S4x256x1024.Idx → EReal)
    = truncf (F := Ideal) .bf16 (shapeCast S4x256x1024 (m ((c : Thread nD τ).loc main_arg2) : FVec Ideal S16x64x1024 .f32) shapeCasts_S16x64x1024_S4x256x1024) bitsLt_bf16_f32 := by
  dsimp only [Gen.V, Gen.hostOps0]; after_results; rfl
theorem V_wv (c : Dev nD) : (V m c main_v5 : S4x256x1024.Idx → EReal)
    = truncf (F := Ideal) .bf16 (shapeCast S4x256x1024 (m ((c : Thread nD τ).loc main_arg3) : FVec Ideal S16x64x1024 .f32) shapeCasts_S16x64x1024_S4x256x1024) bitsLt_bf16_f32 := by
  dsimp only [Gen.V, Gen.hostOps0]; after_results; rfl
/-- The three bias arrays the region finds: the arguments re-laid in groups of 256, with a unit middle axis. -/
theorem V_bq (c : Dev nD) : (V m c main_v7 : S4x1x256.Idx → EReal)
    = broadcastInDim S4x1x256 ![0, 2] bcast_S4x256_S4x1x256_0_2 (shapeCast S4x256 (m ((c : Thread nD τ).loc main_arg4) : FVec Ideal S16x64 .f32) shapeCasts_S16x64_S4x256) := by
  dsimp only [Gen.V, Gen.hostOps0]; after_results; rfl
theorem V_bk (c : Dev nD) : (V m c main_v9 : S4x1x256.Idx → EReal)
    = broadcastInDim S4x1x256 ![0, 2] bcast_S4x256_S4x1x256_0_2 (shapeCast S4x256 (m ((c : Thread nD τ).loc main_arg5) : FVec Ideal S16x64 .f32) shapeCasts_S16x64_S4x256) := by
  dsimp only [Gen.V, Gen.hostOps0]; after_results; rfl
theorem V_bv (c : Dev nD) : (V m c main_v11 : S4x1x256.Idx → EReal)
    = broadcastInDim S4x1x256 ![0, 2] bcast_S4x256_S4x1x256_0_2 (shapeCast S4x256 (m ((c : Thread nD τ).loc main_arg6) : FVec Ideal S16x64 .f32) shapeCasts_S16x64_S4x256) := by
  dsimp only [Gen.V, Gen.hostOps0]; after_results; rfl

/-! ## From the blocks to the array -/

/-- The result as a function of the arguments as launched. -/
def result (c : Dev nD) : S2x2048x1024.Idx → EReal :=
  kernelArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem hz : (![0, 0, 0] : Fin 3 → Nat) = fun _ => 0 := funext fun a => by fin_cases a <;> rfl

/-- The printed index maps over the eight points: the activations and the result follow the batch `t / 4`, the weights,
    the biases and the result's columns the group `t % 4`. -/
theorem idx_facts : ∀ t : Fin cfg0.N,
    win0_7.index t (0 : Fin 3) = t.val / 4 ∧ win0_7.index t (1 : Fin 3) = 0 ∧ win0_7.index t (2 : Fin 3) = t.val % 4
  ∧ win0_0.index t (0 : Fin 3) = t.val / 4 ∧ win0_0.index t (1 : Fin 3) = 0 ∧ win0_0.index t (2 : Fin 3) = 0
  ∧ win0_1.index t (0 : Fin 3) = t.val % 4 ∧ win0_1.index t (1 : Fin 3) = 0 ∧ win0_1.index t (2 : Fin 3) = 0
  ∧ win0_2.index t (0 : Fin 3) = t.val % 4 ∧ win0_2.index t (1 : Fin 3) = 0 ∧ win0_2.index t (2 : Fin 3) = 0
  ∧ win0_3.index t (0 : Fin 3) = t.val % 4 ∧ win0_3.index t (1 : Fin 3) = 0 ∧ win0_3.index t (2 : Fin 3) = 0
  ∧ win0_4.index t (0 : Fin 3) = t.val % 4 ∧ win0_4.index t (1 : Fin 3) = 0 ∧ win0_4.index t (2 : Fin 3) = 0
  ∧ win0_5.index t (0 : Fin 3) = t.val % 4 ∧ win0_5.index t (1 : Fin 3) = 0 ∧ win0_5.index t (2 : Fin 3) = 0
  ∧ win0_6.index t (0 : Fin 3) = t.val % 4 ∧ win0_6.index t (1 : Fin 3) = 0 ∧ win0_6.index t (2 : Fin 3) = 0 :=
  (by decide +kernel : ∀ t : Fin grid0.N, _)

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1x2048x1024) hz, View.ld_unit_zero (S := S1x256x1024) hz, View.ld_unit_zero (S := S1x1x256) hz]
  have ht : t.val < 8 := t.isLt.trans_eq N_0
  obtain ⟨e70, e71, e72, e00, e01, e02, e10, e11, e12, e20, e21, e22, e30, e31, e32, e40, e41, e42, e50, e51, e52, e60, e61, e62⟩ := idx_facts t
  obtain ⟨b, hb⟩ : ∃ b : Fin 2, b.val = t.val / 4 := ⟨⟨t.val / 4, by omega⟩, rfl⟩
  obtain ⟨g, hg⟩ : ∃ g : Fin 4, g.val = t.val % 4 := ⟨⟨t.val % 4, by omega⟩, rfl⟩
  have hx : ∀ (s : Fin 2048) (d : Fin 1024), iblk m c 0 t (ix3 (0 : Fin 1) s d) = (m ((c : Thread nD τ).loc main_arg0) : SX.Idx → EReal) (ix3 b s d) := fun s d => by
    show V m c main_arg0 (((cfg0.win 0).blk t).view.emb (ix3 (0 : Fin 1) s d)) = _
    rw [V_main_arg0]
    refine congrArg _ (funext fun a => Fin.ext ?_)
    match a with
    | ⟨0, _⟩ => show win0_0.index t (0 : Fin 3) * 1 + 1 * 0 = b.val; omega
    | ⟨1, _⟩ => show win0_0.index t (1 : Fin 3) * 2048 + 1 * s.val = s.val; omega
    | ⟨2, _⟩ => show win0_0.index t (2 : Fin 3) * 1024 + 1 * d.val = d.val; omega
  have hwq : ∀ (i : Fin 256) (d : Fin 1024), iblk m c 1 t (ix3 (0 : Fin 1) i d) = (m ((c : Thread nD τ).loc main_arg1) : SW.Idx → EReal) (ix3 (hd g (sub i)) (lane i) d) := fun i d => by
    show V m c main_v1 (((cfg0.win 1).blk t).view.emb (ix3 (0 : Fin 1) i d)) = _
    have he : ((cfg0.win 1).blk t).view.emb (ix3 (0 : Fin 1) i d) = ix3 g i d := funext fun a => Fin.ext (by
      match a with
      | ⟨0, _⟩ => show win0_1.index t (0 : Fin 3) * 1 + 1 * 0 = g.val; omega
      | ⟨1, _⟩ => show win0_1.index t (1 : Fin 3) * 256 + 1 * i.val = i.val; omega
      | ⟨2, _⟩ => show win0_1.index t (2 : Fin 3) * 1024 + 1 * d.val = d.val; omega)
    rw [he, V_wq]
    exact weights_apply _ g i d
  have hwk : ∀ (i : Fin 256) (d : Fin 1024), iblk m c 2 t (ix3 (0 : Fin 1) i d) = (m ((c : Thread nD τ).loc main_arg2) : SW.Idx → EReal) (ix3 (hd g (sub i)) (lane i) d) := fun i d => by
    show V m c main_v3 (((cfg0.win 2).blk t).view.emb (ix3 (0 : Fin 1) i d)) = _
    have he : ((cfg0.win 2).blk t).view.emb (ix3 (0 : Fin 1) i d) = ix3 g i d := funext fun a => Fin.ext (by
      match a with
      | ⟨0, _⟩ => show win0_2.index t (0 : Fin 3) * 1 + 1 * 0 = g.val; omega
      | ⟨1, _⟩ => show win0_2.index t (1 : Fin 3) * 256 + 1 * i.val = i.val; omega
      | ⟨2, _⟩ => show win0_2.index t (2 : Fin 3) * 1024 + 1 * d.val = d.val; omega)
    rw [he, V_wk]
    exact weights_apply _ g i d
  have hwv : ∀ (i : Fin 256) (d : Fin 1024), iblk m c 3 t (ix3 (0 : Fin 1) i d) = (m ((c : Thread nD τ).loc main_arg3) : SW.Idx → EReal) (ix3 (hd g (sub i)) (lane i) d) := fun i d => by
    show V m c main_v5 (((cfg0.win 3).blk t).view.emb (ix3 (0 : Fin 1) i d)) = _
    have he : ((cfg0.win 3).blk t).view.emb (ix3 (0 : Fin 1) i d) = ix3 g i d := funext fun a => Fin.ext (by
      match a with
      | ⟨0, _⟩ => show win0_3.index t (0 : Fin 3) * 1 + 1 * 0 = g.val; omega
      | ⟨1, _⟩ => show win0_3.index t (1 : Fin 3) * 256 + 1 * i.val = i.val; omega
      | ⟨2, _⟩ => show win0_3.index t (2 : Fin 3) * 1024 + 1 * d.val = d.val; omega)
    rw [he, V_wv]
    exact weights_apply _ g i d
  have hβq : ∀ i : Fin 256, iblk m c 4 t (ix3 (0 : Fin 1) (0 : Fin 1) i) = (m ((c : Thread nD τ).loc main_arg4) : SB.Idx → EReal) (ix2 (hd g (sub i)) (lane i)) := fun i => by
    show V m c main_v7 (((cfg0.win 4).blk t).view.emb (ix3 (0 : Fin 1) (0 : Fin 1) i)) = _
    have he : ((cfg0.win 4).blk t).view.emb (ix3 (0 : Fin 1) (0 : Fin 1) i) = ix3 g (0 : Fin 1) i := funext fun a => Fin.ext (by
      match a with
      | ⟨0, _⟩ => show win0_4.index t (0 : Fin 3) * 1 + 1 * 0 = g.val; omega
      | ⟨1, _⟩ => show win0_4.index t (1 : Fin 3) * 1 + 1 * 0 = 0; omega
      | ⟨2, _⟩ => show win0_4.index t (2 : Fin 3) * 256 + 1 * i.val = i.val; omega)
    rw [he, V_bq]
    exact bias_apply _ g 0 i
  have hβk : ∀ i : Fin 256, iblk m c 5 t (ix3 (0 : Fin 1) (0 : Fin 1) i) = (m ((c : Thread nD τ).loc main_arg5) : SB.Idx → EReal) (ix2 (hd g (sub i)) (lane i)) := fun i => by
    show V m c main_v9 (((cfg0.win 5).blk t).view.emb (ix3 (0 : Fin 1) (0 : Fin 1) i)) = _
    have he : ((cfg0.win 5).blk t).view.emb (ix3 (0 : Fin 1) (0 : Fin 1) i) = ix3 g (0 : Fin 1) i := funext fun a => Fin.ext (by
      match a with
      | ⟨0, _⟩ => show win0_5.index t (0 : Fin 3) * 1 + 1 * 0 = g.val; omega
      | ⟨1, _⟩ => show win0_5.index t (1 : Fin 3) * 1 + 1 * 0 = 0; omega
      | ⟨2, _⟩ => show win0_5.index t (2 : Fin 3) * 256 + 1 * i.val = i.val; omega)
    rw [he, V_bk]
    exact bias_apply _ g 0 i
  have hβv : ∀ i : Fin 256, iblk m c 6 t (ix3 (0 : Fin 1) (0 : Fin 1) i) = (m ((c : Thread nD τ).loc main_arg6) : SB.Idx → EReal) (ix2 (hd g (sub i)) (lane i)) := fun i => by
    show V m c main_v11 (((cfg0.win 6).blk t).view.emb (ix3 (0 : Fin 1) (0 : Fin 1) i)) = _
    have he : ((cfg0.win 6).blk t).view.emb (ix3 (0 : Fin 1) (0 : Fin 1) i) = ix3 g (0 : Fin 1) i := funext fun a => Fin.ext (by
      match a with
      | ⟨0, _⟩ => show win0_6.index t (0 : Fin 3) * 1 + 1 * 0 = g.val; omega
      | ⟨1, _⟩ => show win0_6.index t (1 : Fin 3) * 1 + 1 * 0 = 0; omega
      | ⟨2, _⟩ => show win0_6.index t (2 : Fin 3) * 256 + 1 * i.val = i.val; omega)
    rw [he, V_bv]
    exact bias_apply _ g 0 i
  refine funext fun (y : S1x2048x256.Idx) => ?_
  obtain ⟨u, s, j, rfl⟩ : ∃ (u : Fin 1) (s : Fin 2048) (j : Fin 256), y = ix3 u s j := ⟨y 0, y 1, y 2, eq_ix3 y⟩
  have hu : u.val = 0 := by have := u.isLt; omega
  have hj : j.val < 256 := j.isLt
  show k0_pay1 (k0_pay3 (iblk m c 0 t) (iblk m c 1 t) (iblk m c 4 t)) (k0_pay4 (iblk m c 0 t) (iblk m c 2 t) (iblk m c 3 t) (iblk m c 5 t) (iblk m c 6 t))
      (k0_pay5 (iota .tc S256x256 32 [0] iota_S256x256_d0_w32) 64#32) k0_pay6 k0_pay7 k0_pay8 (ix3 u s j)
    = result m c (((cfg0.win 7).blk t).view.emb (ix3 u s j))
  have he : ((cfg0.win 7).blk t).view.emb (ix3 u s j) = ix3 b s (⟨g.val * 256 + j.val, by omega⟩ : Fin 1024) := funext fun a => Fin.ext (by
    match a with
    | ⟨0, _⟩ => show win0_7.index t (0 : Fin 3) * 1 + 1 * u.val = b.val; omega
    | ⟨1, _⟩ => show win0_7.index t (1 : Fin 3) * 2048 + 1 * s.val = s.val; omega
    | ⟨2, _⟩ => show win0_7.index t (2 : Fin 3) * 256 + 1 * j.val = g.val * 256 + j.val; omega)
  rw [he]
  refine (body_eq (iblk m c 0 t) (iblk m c 1 t) (iblk m c 2 t) (iblk m c 3 t) (iblk m c 4 t) (iblk m c 5 t) (iblk m c 6 t) _ _ _ _ _ _ _ b g
    hx hwq hwk hwv hβq hβk hβv u s j).trans ?_
  show kernelOut _ _ _ _ _ _ _ b s g j = kernelOut _ _ _ _ _ _ _ b s ⟨(g.val * 256 + j.val) / 256, _⟩ ⟨(g.val * 256 + j.val) % 256, _⟩
  congr 1
  · apply Fin.ext
    show g.val = (g.val * 256 + j.val) / 256
    omega
  · apply Fin.ext
    show j.val = (g.val * 256 + j.val) % 256
    omega

/-- An index of the result is in point `t`'s block iff each coordinate is in the block's range on its axis. -/
theorem mem_blk (t : Fin cfg0.N) (i : S2x2048x1024.Idx) :
    i ∈ ((cfg0.win 7).blk t).view.set ↔ ∀ a : Fin 3, win0_7.index t a * S1x2048x256.size a ≤ (i a).val ∧ (i a).val < win0_7.index t a * S1x2048x256.size a + S1x2048x256.size a := by
  show i ∈ ((View.whole main_v12).slice (win0_7.rect t)).set ↔ _
  rw [View.set_slice_whole, Rect.mem_set_unit]
  exact Iff.rfl

/-- Every index of the result lies in the block of the point of its batch and of its column's group. -/
theorem cover (i : S2x2048x1024.Idx) : ∃ t : Fin cfg0.N, (cfg0.win 7).flush t = true ∧ i ∈ ((cfg0.win 7).blk t).view.set := by
  have h0 : (i 0).val < 2 := (i 0).isLt
  have h1 : (i 1).val < 2048 := (i 1).isLt
  have h2 : (i 2).val < 1024 := (i 2).isLt
  obtain ⟨t, ht⟩ : ∃ t : Fin cfg0.N, t.val = (i 0).val * 4 + (i 2).val / 256 :=
    ⟨⟨(i 0).val * 4 + (i 2).val / 256, by rw [show cfg0.N = 8 from N_0]; omega⟩, rfl⟩
  obtain ⟨e70, e71, e72, -⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 256 ≤ (i 2).val ∧ (i 2).val < win0_7.index t (2 : Fin 3) * 256 + 256; omega

/-- The result array after the run. -/
theorem final (c : Dev nD) : (dats m 0 c).arrAt 7 cfg0.N = result m c :=
  (dats m 0 c).arrAt_eq_of_cover 7 (result m c) (fun t _ => flushed_eq m c t) (cover)

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KernelValue

end
-- ==== Proof.RefArray.lean ====
/-
  The reference, read entry by entry at the ideal values.

  The reference contracts the weights with the activations over the model width, re-lays the result as
  `[batch, head, position, column]` and adds the bias: that is each head's projection.  It multiplies queries by
  keys over the 64 columns of a head, scales every score by 1/8, multiplies the scores by the values over the
  positions, moves the head axis next to the column axis and merges the two: output column `c` is column `c % 64` of
  head `c / 64`.
-/
import proofs.«149951_j54915451847175_2_alg».proof.Proof.Gen.ReferenceIdeal.Read
import proofs.«149951_j54915451847175_2_alg».proof.Proof.AttnLaw

noncomputable section

namespace Cert.ReferenceIdeal.RefValue

open Cert.ReferenceIdeal Cert.ReferenceIdeal.Gen Cert.ReferenceIdeal.Read Cert.Attn
open Idealize.ShloMosaic Idealize.ShloMosaic.ValueIdx

/-- The query projection of head `h` at position `s`, column `e`. -/
theorem queries_apply (x0 : (⟨S2x2048x1024, .f32⟩ : BufTy).Contents (Elt Ideal)) (x1 : (⟨S16x64x1024, .f32⟩ : BufTy).Contents (Elt Ideal)) (x4 : (⟨S16x64, .f32⟩ : BufTy).Contents (Elt Ideal))
    (b : Fin 2) (h : Fin 16) (s : Fin 2048) (e : Fin 64) :
    val_main_v4 (F := Ideal) x0 x1 x4 (ix4 b h s e) = proj x0 x1 x4 b s h e := by
  rw [val_main_v4_apply, val_main_v1_apply, val_main_v0_apply, val_main_v3_apply, val_main_v2_apply]
  have el : ∀ k : Fin 1024, lidx_main_v0 (idx_main_v1 (ix4 b h s e)) k = ix3 h e k := fun k => funext fun a => by
    match a with | ⟨0, _⟩ => rfl | ⟨1, _⟩ => rfl | ⟨2, _⟩ => rfl
  have er : ∀ k : Fin 1024, ridx_main_v0 (idx_main_v1 (ix4 b h s e)) k = ix3 b s k := fun k => funext fun a => by
    match a with | ⟨0, _⟩ => rfl | ⟨1, _⟩ => rfl | ⟨2, _⟩ => rfl
  have eb : idx_main_v2 (idx_main_v3 (ix4 b h s e)) = ix2 h e := funext fun a => by
    match a with | ⟨0, _⟩ => rfl | ⟨1, _⟩ => rfl
  simp only [el, er, eb]
  show (∑ k : Fin 1024, x1 (ix3 h e k) * x0 (ix3 b s k)) + x4 (ix2 h e) = _
  unfold proj
  exact congrArg (· + _) (Finset.sum_congr rfl fun k _ => mul_comm _ _)

/-- The key projection. -/
theorem keys_apply (x0 : (⟨S2x2048x1024, .f32⟩ : BufTy).Contents (Elt Ideal)) (x2 : (⟨S16x64x1024, .f32⟩ : BufTy).Contents (Elt Ideal)) (x5 : (⟨S16x64, .f32⟩ : BufTy).Contents (Elt Ideal))
    (b : Fin 2) (h : Fin 16) (s : Fin 2048) (e : Fin 64) :
    val_main_v9 (F := Ideal) x0 x2 x5 (ix4 b h s e) = proj x0 x2 x5 b s h e := by
  rw [val_main_v9_apply, val_main_v6_apply, val_main_v5_apply, val_main_v8_apply, val_main_v7_apply]
  have el : ∀ k : Fin 1024, lidx_main_v5 (idx_main_v6 (ix4 b h s e)) k = ix3 h e k := fun k => funext fun a => by
    match a with | ⟨0, _⟩ => rfl | ⟨1, _⟩ => rfl | ⟨2, _⟩ => rfl
  have er : ∀ k : Fin 1024, ridx_main_v5 (idx_main_v6 (ix4 b h s e)) k = ix3 b s k := fun k => funext fun a => by
    match a with | ⟨0, _⟩ => rfl | ⟨1, _⟩ => rfl | ⟨2, _⟩ => rfl
  have eb : idx_main_v7 (idx_main_v8 (ix4 b h s e)) = ix2 h e := funext fun a => by
    match a with | ⟨0, _⟩ => rfl | ⟨1, _⟩ => rfl
  simp only [el, er, eb]
  show (∑ k : Fin 1024, x2 (ix3 h e k) * x0 (ix3 b s k)) + x5 (ix2 h e) = _
  unfold proj
  exact congrArg (· + _) (Finset.sum_congr rfl fun k _ => mul_comm _ _)

/-- The value projection. -/
theorem values_apply (x0 : (⟨S2x2048x1024, .f32⟩ : BufTy).Contents (Elt Ideal)) (x3 : (⟨S16x64x1024, .f32⟩ : BufTy).Contents (Elt Ideal)) (x6 : (⟨S16x64, .f32⟩ : BufTy).Contents (Elt Ideal))
    (b : Fin 2) (h : Fin 16) (s : Fin 2048) (e : Fin 64) :
    val_main_v14 (F := Ideal) x0 x3 x6 (ix4 b h s e) = proj x0 x3 x6 b s h e := by
  rw [val_main_v14_apply, val_main_v11_apply, val_main_v10_apply, val_main_v13_apply, val_main_v12_apply]
  have el : ∀ k : Fin 1024, lidx_main_v10 (idx_main_v11 (ix4 b h s e)) k = ix3 h e k := fun k => funext fun a => by
    match a with | ⟨0, _⟩ => rfl | ⟨1, _⟩ => rfl | ⟨2, _⟩ => rfl
  have er : ∀ k : Fin 1024, ridx_main_v10 (idx_main_v11 (ix4 b h s e)) k = ix3 b s k := fun k => funext fun a => by
    match a with | ⟨0, _⟩ => rfl | ⟨1, _⟩ => rfl | ⟨2, _⟩ => rfl
  have eb : idx_main_v12 (idx_main_v13 (ix4 b h s e)) = ix2 h e := funext fun a => by
    match a with | ⟨0, _⟩ => rfl | ⟨1, _⟩ => rfl
  simp only [el, er, eb]
  show (∑ k : Fin 1024, x3 (ix3 h e k) * x0 (ix3 b s k)) + x6 (ix2 h e) = _
  unfold proj
  exact congrArg (· + _) (Finset.sum_congr rfl fun k _ => mul_comm _ _)

/-- A scaled score: queries of position `s` against keys of position `t`, within head `h`. -/
theorem scores_apply (x0 : (⟨S2x2048x1024, .f32⟩ : BufTy).Contents (Elt Ideal)) (x1 x2 : (⟨S16x64x1024, .f32⟩ : BufTy).Contents (Elt Ideal)) (x4 x5 : (⟨S16x64, .f32⟩ : BufTy).Contents (Elt Ideal))
    (b : Fin 2) (h : Fin 16) (s t : Fin 2048) :
    val_main_v17 (F := Ideal) x0 x1 x2 x4 x5 (ix4 b h s t) = (∑ e' : Fin 64, proj x0 x1 x4 b s h e' * proj x0 x2 x5 b t h e') * eighth := by
  rw [val_main_v17_apply, val_main_v15_apply, val_main_v16_apply, val_main_cst_apply]
  have el : ∀ k : Fin 64, lidx_main_v15 (ix4 b h s t) k = ix4 b h s k := fun k => funext fun a => by
    match a with | ⟨0, _⟩ => rfl | ⟨1, _⟩ => rfl | ⟨2, _⟩ => rfl | ⟨3, _⟩ => rfl
  have er : ∀ k : Fin 64, ridx_main_v15 (ix4 b h s t) k = ix4 b h t k := fun k => funext fun a => by
    match a with | ⟨0, _⟩ => rfl | ⟨1, _⟩ => rfl | ⟨2, _⟩ => rfl | ⟨3, _⟩ => rfl
  simp only [el, er, queries_apply, keys_apply]
  rfl

/-- The reference's result is `refArr` of its arguments. -/
theorem result_eq (x0 : (⟨S2x2048x1024, .f32⟩ : BufTy).Contents (Elt Ideal)) (x1 x2 x3 : (⟨S16x64x1024, .f32⟩ : BufTy).Contents (Elt Ideal)) (x4 x5 x6 : (⟨S16x64, .f32⟩ : BufTy).Contents (Elt Ideal)) :
    val_main_v20 (F := Ideal) x0 x1 x2 x3 x4 x5 x6 = refArr x0 x1 x2 x3 x4 x5 x6 := by
  funext i
  obtain ⟨b, s, c, rfl⟩ : ∃ (b : Fin 2) (s : Fin 2048) (c : Fin 1024), i = ix3 b s c := ⟨i 0, i 1, i 2, eq_ix3 i⟩
  have hb : b.val < 2 := b.isLt
  have hs : s.val < 2048 := s.isLt
  have hc : c.val < 1024 := c.isLt
  rw [val_main_v20_apply, val_main_v19_apply, val_main_v18_apply]
  have ei : idx_main_v19 (idx_main_v20 (ix3 b s c)) = ix4 b (⟨c.val / 64, by omega⟩ : Fin 16) s (⟨c.val % 64, by omega⟩ : Fin 64) := funext fun a => Fin.ext (by
    match a with
    | ⟨0, _⟩ => show ((b.val * 2048 + s.val) * 1024 + c.val) / 2097152 = b.val; omega
    | ⟨1, _⟩ => show ((b.val * 2048 + s.val) * 1024 + c.val) / 64 % 16 = c.val / 64; omega
    | ⟨2, _⟩ => show ((b.val * 2048 + s.val) * 1024 + c.val) / 1024 % 2048 = s.val; omega
    | ⟨3, _⟩ => show ((b.val * 2048 + s.val) * 1024 + c.val) % 64 = c.val % 64; omega)
  rw [ei]
  have el : ∀ k : Fin 2048, lidx_main_v18 (ix4 b (⟨c.val / 64, by omega⟩ : Fin 16) s (⟨c.val % 64, by omega⟩ : Fin 64)) k = ix4 b (⟨c.val / 64, by omega⟩ : Fin 16) s k := fun k => funext fun a => by
    match a with | ⟨0, _⟩ => rfl | ⟨1, _⟩ => rfl | ⟨2, _⟩ => rfl | ⟨3, _⟩ => rfl
  have er : ∀ k : Fin 2048, ridx_main_v18 (ix4 b (⟨c.val / 64, by omega⟩ : Fin 16) s (⟨c.val % 64, by omega⟩ : Fin 64)) k = ix4 b (⟨c.val / 64, by omega⟩ : Fin 16) k (⟨c.val % 64, by omega⟩ : Fin 64) := fun k => funext fun a => by
    match a with | ⟨0, _⟩ => rfl | ⟨1, _⟩ => rfl | ⟨2, _⟩ => rfl | ⟨3, _⟩ => rfl
  simp only [el, er, scores_apply, values_apply]
  rfl

end Cert.ReferenceIdeal.RefValue

end
-- ==== Proof.FiniteInputs.lean ====
/-
  From the precondition to real inputs.

  The precondition says, of each of the seven input arrays, that every entry has absolute value below plus infinity,
  and joins the seven statements by `and`.  An extended real whose absolute value is below plus infinity is neither
  infinity, so it is a real number: each input array is the image of an array of reals.
-/
import proofs.«149951_j54915451847175_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The word `0x7F800000` is plus infinity. -/
theorem ofBits_inf : Ideal.ofBits .f32 0x7F800000#32 = ⊤ := by
  simp [Ideal.ofBits, Ideal.ieee]

/-- An extended real with absolute value below plus infinity is a real number. -/
theorem real_of_abs_lt (x : EReal) (h : Ideal.cmp .olt (max x (-x)) (Ideal.ofBits .f32 0x7F800000#32) = 1#1) : ∃ r : ℝ, x = (r : EReal) := by
  rw [ofBits_inf] at h
  have hlt : max x (-x) < ⊤ := by
    by_contra hn
    have : Ideal.cmp .olt (max x (-x)) ⊤ = 0#1 := by simp [Ideal.cmp, hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One `all(|x| < inf)` of the precondition: every entry of the array is a real number. -/
theorem reals_of_all {s : Shape} {axes : List (Fin s.rank)} (x : FVec Ideal s .f32) (h : s.ReducesTo axes S_) (hb : S_.BroadcastsInDim s (![] : Fin 0 → Fin s.rank)) (hu : 0 < S_.numel)
    (e : Host.reduce IntOp.andi (cmpf .olt (Host.absf x) (broadcastInDim s ![] hb (constant (F := Ideal) S_ .f32 0x7F800000#32))) (constantI S_ 1 1#1) h hu ix0 = 1#1) :
    ∃ x' : s.Idx → ℝ, x = fun i => (x' i : EReal) := by
  have hr : ∀ i : s.Idx, ∃ r : ℝ, x i = (r : EReal) := fun i => by
    have hi := Host.reduce_andi_all _ _ h hu ix0 e i
    rw [cmpf_apply, broadcastInDim_apply _ hb _ i ix0 (fun a => a.elim0), constant_apply, Ideal.cmpf_def] at hi
    exact real_of_abs_lt (x i) hi
  choose x' hx' using hr
  exact ⟨x', funext hx'⟩

variable [Facts]
open Facts

/-- Under the precondition all seven input arrays hold real numbers. -/
theorem reals_of_pre (a0 : FVec Ideal S2x2048x1024 .f32) (a1 a2 a3 : FVec Ideal S16x64x1024 .f32) (a4 a5 a6 : FVec Ideal S16x64 .f32)
    (h : fn (F := Ideal) a0 a1 a2 a3 a4 a5 a6 = fun _ => 1#1) :
    (∃ x : S2x2048x1024.Idx → ℝ, a0 = fun i => (x i : EReal))
    ∧ (∃ x : S16x64x1024.Idx → ℝ, a1 = fun i => (x i : EReal)) ∧ (∃ x : S16x64x1024.Idx → ℝ, a2 = fun i => (x i : EReal)) ∧ (∃ x : S16x64x1024.Idx → ℝ, a3 = fun i => (x i : EReal))
    ∧ (∃ x : S16x64.Idx → ℝ, a4 = fun i => (x i : EReal)) ∧ (∃ x : S16x64.Idx → ℝ, a5 = fun i => (x i : EReal)) ∧ (∃ x : S16x64.Idx → ℝ, a6 = fun i => (x i : EReal)) := by
  have h0 := congrFun h ix0
  dsimp only [fn, fn_part1] at h0
  simp only [andi, IntOp.andi_eq_one] at h0
  obtain ⟨⟨⟨⟨⟨⟨e0, e1⟩, e2⟩, e3⟩, e4⟩, e5⟩, e6⟩ := h0
  exact ⟨reals_of_all a0 _ _ _ e0, reals_of_all a1 _ _ _ e1, reals_of_all a2 _ _ _ e2, reals_of_all a3 _ _ _ e3,
    reals_of_all a4 _ _ _ e4, reals_of_all a5 _ _ _ e5, reals_of_all a6 _ _ _ e6⟩

end Cert.Pre_finite_inputs.Finite

end
-- ==== Proof.lean ====
/-
  Attention without softmax, sixteen heads of width 64 over 2048 positions: the kernel against the reference, at
  the ideal values, for finite inputs.

  Both programs project the activations to queries, keys and values per head.  The reference then computes, per head,
  `((Q Kᵀ) · 1/8) V`.  The kernel handles four heads at a time: it computes the 256 x 256 matrix `Kᵀ V` of the group,
  zeroes its entries that pair columns of different heads, and computes `(Q · masked(Kᵀ V)) · 1/8`.  Entry by entry
  the two are the same double sum over positions and head columns, taken in the two orders; exchanging the orders
  needs distributivity, which holds because finite inputs are real numbers and so are all sums of their products.

  * Proof/AttnLaw.lean states both results as functions of the seven input arrays and proves them equal over the reals.
  * Proof/HeadMask.lean and Proof/KernelPieces.lean read the kernel body's integer mask and its arithmetic at an entry;
    Proof/KernelArray.lean reads the host's re-laying of the weights in groups of four heads, shows that each of the
    eight grid points writes its block of the kernel's function, and that the blocks tile the result.
  * Proof/RefArray.lean reads the reference's operations at an entry.
  * Proof/FiniteInputs.lean turns the precondition into real-valued input arrays.
  The three programs' termination, absence of faults and unchanged arguments come from the generated frame and run
  modules; the kernel's idealization rewrites nothing, so there is nothing to preserve.
-/
import proofs.«149951_j54915451847175_2_alg».proof.Defs
import proofs.«149951_j54915451847175_2_alg».proof.Proof.Gen.Kernel
import proofs.«149951_j54915451847175_2_alg».proof.Proof.Gen.Kernel.Frame
import proofs.«149951_j54915451847175_2_alg».proof.Proof.Gen.KernelIdeal
import proofs.«149951_j54915451847175_2_alg».proof.Proof.Gen.KernelIdeal.Frame
import proofs.«149951_j54915451847175_2_alg».proof.Proof.Gen.KernelIdeal.Value
import proofs.«149951_j54915451847175_2_alg».proof.Proof.Gen.ReferenceIdeal
import proofs.«149951_j54915451847175_2_alg».proof.Proof.Gen.ReferenceIdeal.Run
import proofs.«149951_j54915451847175_2_alg».proof.Proof.Gen.ReferenceIdeal.Read
import proofs.«149951_j54915451847175_2_alg».proof.Proof.Gen.Pre_finite_inputs
import proofs.«149951_j54915451847175_2_alg».proof.Proof.AttnLaw
import proofs.«149951_j54915451847175_2_alg».proof.Proof.KernelArray
import proofs.«149951_j54915451847175_2_alg».proof.Proof.RefArray
import proofs.«149951_j54915451847175_2_alg».proof.Proof.FiniteInputs

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- The kernel ends at its function of the arguments, the reference at its own, the arguments agree and are real, and
    over the reals the two functions are one. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KernelValue.result m c
  rw [Cert.ReferenceIdeal.Read.val_main_v20_eq, Cert.ReferenceIdeal.RefValue.result_eq]
  obtain ⟨a0, a1, a2, a3, a4, a5, a6⟩ := hagree c
  rw [a0, a1, a2, a3, a4, a5, a6]
  obtain ⟨⟨x, hx⟩, ⟨wq, hwq⟩, ⟨wk, hwk⟩, ⟨wv, hwv⟩, ⟨bq, hbq⟩, ⟨bk, hbk⟩, ⟨bv, hbv⟩⟩ :=
    Cert.Pre_finite_inputs.Finite.reals_of_pre _ _ _ _ _ _ _ (hpre c)
  unfold Cert.KernelIdeal.KernelValue.result
  rw [hx, hwq, hwk, hwv, hbq, hbk, hbv]
  exact (Cert.Attn.kernelArr_eq_refArr x wq wk wv bq bk bv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
